-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S512x1024 : Shape := ⟨2, ![512, 1024]⟩
abbrev S512 : Shape := ⟨1, ![512]⟩
abbrev S1 : Shape := ⟨1, ![1]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S512 .f32) (main_arg5 : FVec F S1 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S65536x1024 .f32) (main_arg1 : FVec F S512x1024 .f32) (main_arg2 : FVec F S512 .f32) (main_arg3 : FVec F S512 .f32) (main_arg4 : FVec F S512 .f32) (main_arg5 : FVec F S1 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S512x1024 .f32 := Host.absf main_arg1
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_v13 main_v16
-- ==== Kernel.lean ====
abbrev S65536x1024 : Shape := ⟨2, ![65536, 1024]⟩
abbrev S512x1024 : Shape := ⟨2, ![512, 1024]⟩
abbrev S512 : Shape := ⟨1, ![512]⟩
abbrev S1 : Shape := ⟨1, ![1]⟩
abbrev S1x512 : Shape := ⟨2, ![1, 512]⟩
abbrev S_ : Shape := ⟨0, ![]⟩
abbrev S65536x512 : Shape := ⟨2, ![65536, 512]⟩
abbrev S1024x1024 : Shape := ⟨2, ![1024, 1024]⟩
abbrev S1024x512 : Shape := ⟨2, ![1024, 512]⟩
abbrev S1024 : Shape := ⟨1, ![1024]⟩
abbrev S1024x1 : Shape := ⟨2, ![1024, 1]⟩

abbrev nBuf : Space → Nat
  | .hbm => 17
  | .vmem => 8
  | .smem => 0
  | _ => 0

abbrev bufTy : (tb : Table) → Fin (tcTables nBuf tb) → BufTy
  | .hbm, ⟨0, _⟩ => ⟨S65536x1024, .f32⟩
  | .hbm, ⟨1, _⟩ => ⟨S512x1024, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S1, .f32⟩
  | .hbm, ⟨6, _⟩ => ⟨S512x1024, .bf16⟩
  | .hbm, ⟨7, _⟩ => ⟨S1x512, .f32⟩
  | .hbm, ⟨8, _⟩ => ⟨S_, .f32⟩
  | .hbm, ⟨9, _⟩ => ⟨S512, .f32⟩
  | .hbm, ⟨10, _⟩ => ⟨S512, .f32⟩
  | .hbm, ⟨11, _⟩ => ⟨S1x512, .f32⟩
  | .hbm, ⟨12, _⟩ => ⟨S_, .f32⟩
  | .hbm, ⟨13, _⟩ => ⟨S512, .f32⟩
  | .hbm, ⟨14, _⟩ => ⟨S512, .f32⟩
  | .hbm, ⟨15, _⟩ => ⟨S1x512, .f32⟩
  | .hbm, ⟨16, _⟩ => ⟨S65536x512, .f32⟩
  | .local _ .vmem, ⟨0, _⟩ => ⟨S1024x1024, .f32⟩
  | .local _ .vmem, ⟨1, _⟩ => ⟨S1024x1024, .f32⟩
  | .local _ .vmem, ⟨2, _⟩ => ⟨S512x1024, .bf16⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bitsLt_bf16_f32 : FTy.bits .bf16 < FTy.bits .f32
  shapeCasts_S512_S1x512 : S512.ShapeCasts S1x512
  shapeCasts_S1_S_ : S1.ShapeCasts S_
  bcast_S_S512 : S_.BroadcastsInDim S512 (![] : Fin 0 → Fin S512.rank)
  inb_S1024x1024_S1024x1024_0_0 : ∀ a, (![0, 0] : Fin 2 → Nat) a + S1024x1024.size a ≤ S1024x1024.size a
  h_S1024x1024 : 0 < S1024x1024.numel
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  reduces_S1024x512_S1024 : S1024x512.Reduces [1] S1024
  shapeCasts_S1024_S1024x1 : S1024.ShapeCasts S1024x1
  broadcasts_S1024x1_S1024x512 : S1024x1.Broadcasts S1024x512
  inb_S1024x512_S1024x512_0_0 : ∀ a, (![0, 0] : Fin 2 → Nat) a + S1024x512.size a ≤ S1024x512.size a
  h_S1024x512 : 0 < S1024x512.numel
  dot_S1024x1024_S512x1024_S1024x512_1_1_0_0_n_n_wf : DotDims.WF S1024x1024 S512x1024 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S65536x1024.size a
  hwx0_0 : ∀ i : grid0.Coords, EltTy.bits .f32 = 32 ∨ (Rect.block (s := S65536x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .bf16 = 32 ∨ (Rect.block (s := S512x1024) S512x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S65536x512.size a
  hwx0_5 : ∀ i : grid0.Coords, EltTy.bits .f32 = 32 ∨ (Rect.block (s := S65536x512) S1024x512.size (cc0_transform_5 i) (hinb0_5 i)).WholeWords (EltTy.packing .f32)

variable [Facts₀]

def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S1024x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S65536x1024 : Shape := ⟨2, ![65536, 1024]⟩
abbrev S512x1024 : Shape := ⟨2, ![512, 1024]⟩
abbrev S512 : Shape := ⟨1, ![512]⟩
abbrev S1 : Shape := ⟨1, ![1]⟩
abbrev S65536x512 : Shape := ⟨2, ![65536, 512]⟩
abbrev S1x512 : Shape := ⟨2, ![1, 512]⟩
abbrev S_ : Shape := ⟨0, ![]⟩
abbrev S65536 : Shape := ⟨1, ![65536]⟩
abbrev S65536x1 : Shape := ⟨2, ![65536, 1]⟩

abbrev nBuf : Space → Nat
  | .hbm => 56
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S512x1024, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S1, .f32⟩
  | .hbm, ⟨6, _⟩ => ⟨S65536x512, .f32⟩
  | .hbm, ⟨7, _⟩ => ⟨S1x512, .f32⟩
  | .hbm, ⟨8, _⟩ => ⟨S65536x512, .f32⟩
  | .hbm, ⟨9, _⟩ => ⟨S65536x512, .f32⟩
  | .hbm, ⟨10, _⟩ => ⟨S_, .f32⟩
  | .hbm, ⟨11, _⟩ => ⟨S65536, .f32⟩
  | .hbm, ⟨12, _⟩ => ⟨S65536x1, .f32⟩
  | .hbm, ⟨13, _⟩ => ⟨S_, .f32⟩
  | .hbm, ⟨14, _⟩ => ⟨S65536x1, .f32⟩
  | .hbm, ⟨15, _⟩ => ⟨S65536x1, .f32⟩
  | .hbm, ⟨16, _⟩ => ⟨S65536x512, .f32⟩
  | .hbm, ⟨17, _⟩ => ⟨S65536x512, .f32⟩
  | .hbm, ⟨18, _⟩ => ⟨S65536x512, .f32⟩
  | .hbm, ⟨19, _⟩ => ⟨S_, .f32⟩
  | .hbm, ⟨20, _⟩ => ⟨S65536, .f32⟩
  | .hbm, ⟨21, _⟩ => ⟨S65536x1, .f32⟩
  | .hbm, ⟨22, _⟩ => ⟨S_, .f32⟩
  | .hbm, ⟨23, _⟩ => ⟨S65536x1, .f32⟩
  | .hbm, ⟨24, _⟩ => ⟨S65536x1, .f32⟩
  | .hbm, ⟨25, _⟩ => ⟨S65536x512, .f32⟩
  | .hbm, ⟨26, _⟩ => ⟨S65536x512, .f32⟩
  | .hbm, ⟨27, _⟩ => ⟨S_, .f32⟩
  | .hbm, ⟨28, _⟩ => ⟨S65536x1, .f32⟩
  | .hbm, ⟨29, _⟩ => ⟨S65536x1, .f32⟩
  | .hbm, ⟨30, _⟩ => ⟨S65536x1, .f32⟩
  | .hbm, ⟨31, _⟩ => ⟨S65536x512, .f32⟩
  | .hbm, ⟨32, _⟩ => ⟨S65536x512, .f32⟩
  | .hbm, ⟨33, _⟩ => ⟨S1x512, .f32⟩
  | .hbm, ⟨34, _⟩ => ⟨S65536x512, .f32⟩
  | .hbm, ⟨35, _⟩ => ⟨S65536x512, .f32⟩
  | .hbm, ⟨36, _⟩ => ⟨S1x512, .f32⟩
  | .hbm, ⟨37, _⟩ => ⟨S65536x512, .f32⟩
  | .hbm, ⟨38, _⟩ => ⟨S65536x512, .f32⟩
  | .hbm, ⟨39, _⟩ => ⟨S_, .f32⟩
  | .hbm, ⟨40, _⟩ => ⟨S65536x512, .f32⟩
  | .hbm, ⟨41, _⟩ => ⟨S65536x512, .f32⟩
  | .hbm, ⟨42, _⟩ => ⟨S_, .f32⟩
  | .hbm, ⟨43, _⟩ => ⟨S65536, .f32⟩
  | .hbm, ⟨44, _⟩ => ⟨S_, .f32⟩
  | .hbm, ⟨45, _⟩ => ⟨S65536, .f32⟩
  | .hbm, ⟨46, _⟩ => ⟨S65536, .f32⟩
  | .hbm, ⟨47, _⟩ => ⟨S65536x1, .f32⟩
  | .hbm, ⟨48, _⟩ => ⟨S65536x512, .f32⟩
  | .hbm, ⟨49, _⟩ => ⟨S65536x512, .f32⟩
  | .hbm, ⟨50, _⟩ => ⟨S65536x512, .f32⟩
  | .hbm, ⟨51, _⟩ => ⟨S_, .f32⟩
  | .hbm, ⟨52, _⟩ => ⟨S65536, .f32⟩
  | .hbm, ⟨53, _⟩ => ⟨S65536x1, .f32⟩
  | .hbm, ⟨54, _⟩ => ⟨S65536x512, .f32⟩
  | .hbm, ⟨55, _⟩ => ⟨S65536x512, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  reducesTo_S65536x512_S65536_d1 : S65536x512.ReducesTo [1] S65536
  h_S_ : 0 < S_.numel
  bcast_S65536_S65536x1_0 : S65536.BroadcastsInDim S65536x1 (![0] : Fin 1 → Fin S65536x1.rank)
  bcast_S_S65536x1 : S_.BroadcastsInDim S65536x1 (![] : Fin 0 → Fin S65536x1.rank)
  bcast_S65536x1_S65536x512_0_1 : S65536x1.BroadcastsInDim S65536x512 (![0, 1] : Fin 2 → Fin S65536x512.rank)
  shapeCasts_S1_S_ : S1.ShapeCasts S_
  bcast_S_S65536x512 : S_.BroadcastsInDim S65536x512 (![] : Fin 0 → Fin S65536x512.rank)
  bcast_S_S65536 : S_.BroadcastsInDim S65536 (![] : Fin 0 → Fin S65536.rank)
  dot_S65536x1024_S512x1024_S65536x512_1_1_0_0_n_n_wf : DotDims.WF S65536x1024 S512x1024 S65536x512 [1] [1] [0] [0] [] []

variable [Facts₀]

def dot_S65536x1024_S512x1024_S65536x512_1_1_0_0_n_n : DotDims S65536x1024 S512x1024 S65536x512 where
  lhsContracting := [1]
  rhsContracting := [1]
  lhsNonContracting := [0]
  rhsNonContracting := [0]
  lhsBatch := []
  rhsBatch := []
  wf := dot_S65536x1024_S512x1024_S65536x512_1_1_0_0_n_n_wf

class Facts : Prop extends Facts₀ where

variable [Facts]
-- ==== Proof.Spec.lean ====
/-
  The function both programs compute, one output row at a time.

  A row of the result depends on one row of `x` only. With `a q = ∑ k, x k · w q k + bias q` (the row of the
  matrix product plus the bias), the row is normalised to zero mean and unit variance over its 512 entries
  (`cen`, `var`, with the small constant `eps` added to the variance), sent through an affine map per column, and
  then through a softmax over the row: `exp (z q − max z) / ∑ k, exp (z k − max z)`.

  The two programs spell the affine step differently. The kernel multiplies by the reciprocal square root and takes
  the column scale and shift already multiplied by the scalar `s` (`affineK`, with `g = γ · s`, `b = β · s`); the
  reference divides by the square root and multiplies the whole by `s` at the end (`affineR`). The law that
  joins them is in Law.lean; it needs every number to be finite.

  Everything is over the extended reals, with the division, square roots and exponential of the ideal float
  instance, and the constants kept as the words the programs print.
-/
import Idealize.ShloMosaic.PureOps.Ideal
import Idealize.ShloMosaic.Lib.ValueIdx

noncomputable section

namespace Cert.RowSoftmax

open Idealize.ShloMosaic Idealize.ShloMosaic.ValueIdx

/-- The row length `512.0`, as both programs print it. -/
abbrev c512 : EReal := Ideal.ofBits .f32 0x44000000#32
/-- The constant added to the variance, as both programs print it. -/
abbrev eps : EReal := Ideal.ofBits .f32 0x3727C5AC#32

/-- One row of the product with the weights' transpose, plus the bias. -/
def acc (xr : Fin 1024 → EReal) (w : Fin 512 → Fin 1024 → EReal) (b : Fin 512 → EReal) (q : Fin 512) : EReal :=
  (∑ k : Fin 1024, xr k * w q k) + b q

/-- The mean of a row. -/
def mean (a : Fin 512 → EReal) : EReal := Ideal.div (∑ k : Fin 512, a k) c512

/-- A row minus its mean. -/
def cen (a : Fin 512 → EReal) (q : Fin 512) : EReal := a q - mean a

/-- The mean of the squared deviations. -/
def var (a : Fin 512 → EReal) : EReal := Ideal.div (∑ k : Fin 512, cen a k * cen a k) c512

/-- The kernel's affine step: the deviation times the reciprocal root, times a column scale, plus a column shift. -/
def affineK (a g b : Fin 512 → EReal) (q : Fin 512) : EReal :=
  cen a q * Ideal.rsqrt (var a + eps) * g q + b q

/-- The reference's affine step: the deviation over the root, times `γ`, plus `β`, all times the scalar `s`. -/
def affineR (a γ β : Fin 512 → EReal) (s : EReal) (q : Fin 512) : EReal :=
  (Ideal.div (cen a q) (Ideal.sqrt (var a + eps)) * γ q + β q) * s

/-- The largest entry of a row (the fold of `max` from `-∞`). -/
def rowMax (z : Fin 512 → EReal) : EReal := (Finset.univ : Finset (Fin 512)).fold max (⊥ : EReal) z

/-- The softmax of a row at a column. -/
def softmax (z : Fin 512 → EReal) (q : Fin 512) : EReal :=
  Ideal.div (Ideal.exp (z q - rowMax z)) (∑ k : Fin 512, Ideal.exp (z k - rowMax z))

/-! ## The whole arrays -/

/-- Row `p` of the `[65536, 1024]` input. -/
def rowX (x : (⟨2, ![65536, 1024]⟩ : Shape).Idx → EReal) (p : Fin 65536) : Fin 1024 → EReal := fun k => x (ix2 p k)
/-- The `[512, 1024]` weights by row and column. -/
def matW (w : (⟨2, ![512, 1024]⟩ : Shape).Idx → EReal) : Fin 512 → Fin 1024 → EReal := fun q k => w (ix2 q k)
/-- A `[512]` vector by entry. -/
def vec (v : (⟨1, ![512]⟩ : Shape).Idx → EReal) : Fin 512 → EReal := fun q => v (ix1 q)

/-- The result in the kernel's arrangement: scale and shift multiplied by the scalar first. -/
def GK (x : (⟨2, ![65536, 1024]⟩ : Shape).Idx → EReal) (w : (⟨2, ![512, 1024]⟩ : Shape).Idx → EReal)
    (b γ β : (⟨1, ![512]⟩ : Shape).Idx → EReal) (s : (⟨1, ![1]⟩ : Shape).Idx → EReal) :
    (⟨2, ![65536, 512]⟩ : Shape).Idx → EReal := fun i =>
  softmax (affineK (acc (rowX x (i 0)) (matW w) (vec b)) (fun q => γ (ix1 q) * s (ix1 0)) (fun q => β (ix1 q) * s (ix1 0))) (i 1)

/-- The result in the reference's arrangement: the scalar multiplied in last. -/
def GR (x : (⟨2, ![65536, 1024]⟩ : Shape).Idx → EReal) (w : (⟨2, ![512, 1024]⟩ : Shape).Idx → EReal)
    (b γ β : (⟨1, ![512]⟩ : Shape).Idx → EReal) (s : (⟨1, ![1]⟩ : Shape).Idx → EReal) :
    (⟨2, ![65536, 512]⟩ : Shape).Idx → EReal := fun i =>
  softmax (affineR (acc (rowX x (i 0)) (matW w) (vec b)) (vec γ) (vec β) (s (ix1 0))) (i 1)

end Cert.RowSoftmax

end
-- ==== Proof.Law.lean ====
/-
  The law that joins the two arrangements of the affine step, for finite inputs.

  When every entry of a row `a` is a real number, so are its mean, its deviations and its variance `v`, and `v ≥ 0`
  (a mean of squares), so `v + eps` is a positive real: there the reciprocal square root is the inverse of the square
  root and dividing by the root is multiplying by that inverse. For real `c, r, γ, β, s`,
  `c · r · (γ · s) + β · s = (c · r · γ + β) · s`. On the extended reals this needs the finiteness: the products do
  not distribute over sums at the infinities.
-/
import proofs.«156195_j19688130085503_2_alg».proof.Proof.Spec

noncomputable section

namespace Cert.RowSoftmax

open Idealize.ShloMosaic Idealize.ShloMosaic.ValueIdx

/-- A finite sum of real numbers, taken in the extended reals, is the real sum. -/
theorem coe_sum {ι : Type} (t : Finset ι) (f : ι → ℝ) : (∑ k ∈ t, ((f k : ℝ) : EReal)) = ((∑ k ∈ t, f k : ℝ) : EReal) := by
  classical
  refine Finset.induction_on t ?_ ?_
  · simp
  · intro a t ha ih
    rw [Finset.sum_insert ha, Finset.sum_insert ha, ih, EReal.coe_add]

/-- The word `0x44000000` is the real number 512. -/
theorem c512_eq : c512 = ((512 : ℝ) : EReal) := by
  show Ideal.ofBits .f32 0x44000000#32 = _
  simp [Ideal.ofBits, Ideal.ieee, -EReal.coe_mul] <;> norm_num

/-- The word `0x3727C5AC` is a positive real number (about `1e-5`). -/
theorem eps_pos : ∃ e : ℝ, 0 < e ∧ eps = ((e : ℝ) : EReal) := by
  refine ⟨(10995116 : ℝ) * (2 : ℝ) ^ (-40 : ℤ), by positivity, ?_⟩
  show Ideal.ofBits .f32 0x3727C5AC#32 = _
  simp [Ideal.ofBits, Ideal.ieee, -EReal.coe_mul] <;> norm_num

/-- The word `0xFF800000` is `-∞`. -/
theorem neg_inf_eq : Ideal.ofBits .f32 0xFF800000#32 = (⊥ : EReal) := by
  simp [Ideal.ofBits, Ideal.ieee]

section Real
variable (a : Fin 512 → ℝ)

/-- The mean of a real row is the real mean. -/
theorem mean_coe : mean (fun k => ((a k : ℝ) : EReal)) = (((∑ k, a k) * (1 / 512) : ℝ) : EReal) := by
  unfold mean
  rw [coe_sum, c512_eq, Ideal.div_coe (by norm_num : (512 : ℝ) ≠ 0), ← EReal.coe_mul]

/-- The deviations of a real row are real. -/
theorem cen_coe (q : Fin 512) :
    cen (fun k => ((a k : ℝ) : EReal)) q = ((a q - (∑ k, a k) * (1 / 512) : ℝ) : EReal) := by
  unfold cen
  rw [mean_coe, ← EReal.coe_sub]

/-- The variance of a real row is the real mean of the squared deviations. -/
theorem var_coe : var (fun k => ((a k : ℝ) : EReal))
    = (((∑ j, (a j - (∑ k, a k) * (1 / 512)) * (a j - (∑ k, a k) * (1 / 512))) * (1 / 512) : ℝ) : EReal) := by
  unfold var
  simp only [cen_coe, ← EReal.coe_mul]
  rw [coe_sum, c512_eq, Ideal.div_coe (by norm_num : (512 : ℝ) ≠ 0), ← EReal.coe_mul]

/-- THE LAW: on a real row, with real scale, shift and scalar, the two arrangements of the affine step agree. -/
theorem affine_eq (γ β : Fin 512 → ℝ) (s : ℝ) (q : Fin 512) :
    affineK (fun k => ((a k : ℝ) : EReal)) (fun k => ((γ k : ℝ) : EReal) * ((s : ℝ) : EReal))
        (fun k => ((β k : ℝ) : EReal) * ((s : ℝ) : EReal)) q
      = affineR (fun k => ((a k : ℝ) : EReal)) (fun k => ((γ k : ℝ) : EReal)) (fun k => ((β k : ℝ) : EReal)) ((s : ℝ) : EReal) q := by
  obtain ⟨e, he, hE⟩ := eps_pos
  unfold affineK affineR
  rw [cen_coe, var_coe, hE, ← EReal.coe_add]
  generalize hy : (∑ j, (a j - (∑ k, a k) * (1 / 512)) * (a j - (∑ k, a k) * (1 / 512))) * (1 / 512) + e = y
  have hpos : 0 < y := by
    rw [← hy]
    exact add_pos_of_nonneg_of_pos (mul_nonneg (Finset.sum_nonneg fun j _ => mul_self_nonneg _) (by norm_num)) he
  rw [Ideal.rsqrt_coe, if_neg (not_lt.mpr hpos.le), if_neg hpos.ne', Ideal.sqrt_coe, if_neg (not_lt.mpr hpos.le),
    Ideal.div_coe (Real.sqrt_pos.mpr hpos).ne']
  simp only [← EReal.coe_mul, ← EReal.coe_add]
  congr 1
  rw [one_div]
  ring

end Real

/-- For finite inputs the kernel's arrangement and the reference's are one function. -/
theorem GK_eq_GR (x : (⟨2, ![65536, 1024]⟩ : Shape).Idx → EReal) (w : (⟨2, ![512, 1024]⟩ : Shape).Idx → EReal)
    (b γ β : (⟨1, ![512]⟩ : Shape).Idx → EReal) (s : (⟨1, ![1]⟩ : Shape).Idx → EReal)
    (hx : ∀ i, ∃ r : ℝ, x i = (r : EReal)) (hw : ∀ i, ∃ r : ℝ, w i = (r : EReal)) (hb : ∀ i, ∃ r : ℝ, b i = (r : EReal))
    (hγ : ∀ i, ∃ r : ℝ, γ i = (r : EReal)) (hβ : ∀ i, ∃ r : ℝ, β i = (r : EReal)) (hs : ∀ i, ∃ r : ℝ, s i = (r : EReal)) :
    GK x w b γ β s = GR x w b γ β s := by
  choose xr hxr using hx
  choose wr hwr using hw
  choose br hbr using hb
  choose γr hγr using hγ
  choose βr hβr using hβ
  choose sr hsr using hs
  funext i
  have hacc : acc (rowX x (i 0)) (matW w) (vec b)
      = fun q => (((∑ k, xr (ix2 (i 0) k) * wr (ix2 q k)) + br (ix1 q) : ℝ) : EReal) := by
    funext q
    unfold acc rowX matW vec
    simp only [hxr, hwr, hbr, ← EReal.coe_mul]
    rw [coe_sum, ← EReal.coe_add]
  unfold GK GR
  rw [hacc]
  refine congrArg (fun z => softmax z (i 1)) (funext fun q => ?_)
  unfold vec
  simp only [hγr, hβr, hsr]
  exact affine_eq _ _ _ _ q

end Cert.RowSoftmax

end
-- ==== Proof.Finite.lean ====
/-
  Finite inputs are real. The precondition `finite_inputs` computes, for each of the six float arrays,
  the conjunction over all entries of `|x| < +∞`, and conjoins the six results; the claim's hypothesis is
  that this one-bit result is 1. Read at the extended reals, where `|x|` is `max x (-x)` and the bit
  pattern 0x7F800000 denotes `⊤`, it says that every entry `x` of every array satisfies `x < ⊤` and
  `-x < ⊤`, so `x` is neither `⊤` nor `⊥`: it is (the coercion of) a real number.
-/
import proofs.«156195_j19688130085503_2_alg».proof.Pre_finite_inputs
import Idealize.ShloMosaic.Lib.ReduceAll
import Idealize.ShloMosaic.Lib.ValueIdx
import Idealize.ShloMosaic.Lib.IdealHost
import Idealize.ShloMosaic.PureOps.Ideal

noncomputable section

namespace Cert.Finite

open Idealize.ShloMosaic Idealize.ShloMosaic.ValueIdx
open Cert.Pre_finite_inputs

/-- The rank-0 shape has exactly one index (the empty tuple). -/
instance : Subsingleton S_.Idx := ⟨fun a b => funext fun d => d.elim0⟩

/-- The f32 pattern 0x7F800000 (sign 0, exponent all ones, significand 0) denotes `+∞`. -/
theorem inf_f32 : Ideal.ofBits .f32 0x7F800000#32 = (⊤ : EReal) := by
  simp [Ideal.ofBits, Ideal.ieee]

/-- One entry: if the comparison `|a i| < +∞` came out 1, then `a i` is a real number. Indeed
    `max (a i) (-(a i)) < ⊤` gives `a i < ⊤` and `-(a i) < ⊤`; the first excludes `⊤`, the second `⊥`
    (as `-⊥ = ⊤`), and an extended real that is neither is the coercion of its real part. -/
theorem real_of_abs_lt_inf {s : Shape} (hb : S_.BroadcastsInDim s (![] : Fin 0 → Fin s.rank))
    (a : FVec Ideal s .f32) (i : s.Idx)
    (e : cmpf .olt (Host.absf a) (broadcastInDim s ![] hb (constant S_ .f32 0x7F800000#32)) i = 1#1) :
    ∃ r : ℝ, a i = (r : EReal) := by
  rw [cmpf_apply, broadcastInDim_scalar_apply, constant_apply, inf_f32] at e
  have hlt : max (a i) (-(a i)) < (⊤ : EReal) := by
    by_contra hn
    have e' : BitVec.ofBool (decide (max (a i) (-(a i)) < (⊤ : EReal))) = 1#1 := e
    rw [decide_eq_false hn] at e'
    exact absurd e' (by decide)
  have h1 : a i < ⊤ := lt_of_le_of_lt (le_max_left _ _) hlt
  have h2 : -(a i) < ⊤ := lt_of_le_of_lt (le_max_right _ _) hlt
  have hne_top : a i ≠ ⊤ := ne_of_lt h1
  have hne_bot : a i ≠ ⊥ := by
    intro hbot
    rw [hbot, EReal.neg_bot] at h2
    exact lt_irrefl _ h2
  exact ⟨(a i).toReal, (EReal.coe_toReal hne_top hne_bot).symm⟩

/-- THE PRECONDITION DECODED: under `finite_inputs`, every entry of each of the six arrays is a real. The
    result at the one index of the rank-0 shape is a conjunction (by `and` on one-bit words) of six
    reductions by `and` over all axes; a conjunction that is 1 has both sides 1, a total reduction by
    `and` that is 1 met a 1 at every index, and each such 1 is the comparison `|x| < +∞` of the entry. -/
theorem real_of_pre [Cert.Pre_finite_inputs.Facts]
    (a0 : FVec Ideal Cert.Pre_finite_inputs.S65536x1024 .f32) (a1 : FVec Ideal Cert.Pre_finite_inputs.S512x1024 .f32)
    (a2 a3 a4 : FVec Ideal Cert.Pre_finite_inputs.S512 .f32) (a5 : FVec Ideal Cert.Pre_finite_inputs.S1 .f32)
    (h : Cert.Pre_finite_inputs.fn (F := Ideal) a0 a1 a2 a3 a4 a5 = fun _ => 1#1) :
    (∀ i, ∃ r : ℝ, a0 i = (r : EReal)) ∧ (∀ i, ∃ r : ℝ, a1 i = (r : EReal)) ∧ (∀ i, ∃ r : ℝ, a2 i = (r : EReal))
    ∧ (∀ i, ∃ r : ℝ, a3 i = (r : EReal)) ∧ (∀ i, ∃ r : ℝ, a4 i = (r : EReal)) ∧ (∀ i, ∃ r : ℝ, a5 i = (r : EReal)) := by
  have e := congrFun h ix0
  dsimp only [fn, fn_part1, andi] at e
  simp only [IntOp.andi_eq_one] at e
  obtain ⟨⟨⟨⟨⟨e0, e1⟩, e2⟩, e3⟩, e4⟩, e5⟩ := e
  exact ⟨fun i => real_of_abs_lt_inf _ a0 i (Host.reduce_andi_all _ _ _ _ _ e0 i),
    fun i => real_of_abs_lt_inf _ a1 i (Host.reduce_andi_all _ _ _ _ _ e1 i),
    fun i => real_of_abs_lt_inf _ a2 i (Host.reduce_andi_all _ _ _ _ _ e2 i),
    fun i => real_of_abs_lt_inf _ a3 i (Host.reduce_andi_all _ _ _ _ _ e3 i),
    fun i => real_of_abs_lt_inf _ a4 i (Host.reduce_andi_all _ _ _ _ _ e4 i),
    fun i => real_of_abs_lt_inf _ a5 i (Host.reduce_andi_all _ _ _ _ _ e5 i)⟩

end Cert.Finite

end
-- ==== Proof.RefRead.lean ====
/-
  The reference's result, read entry by entry, is the row function of Spec.lean.

  The reference computes on the whole `[65536, 512]` matrix what the specification says of each row: the product
  with the weights' transpose plus the bias, the row mean (a sum over the 512 columns divided by 512, kept as a
  `[65536, 1]` column and repeated across the columns), the deviations, their mean square, the quotient by the root
  of that plus `eps`, the column scale and shift, the scalar factor, and a softmax along the row. Every stage at
  `(p, q)` depends on row `p` only.
-/
import proofs.«156195_j19688130085503_2_alg».proof.Proof.Gen.ReferenceIdeal.Read
import proofs.«156195_j19688130085503_2_alg».proof.Proof.Spec
import proofs.«156195_j19688130085503_2_alg».proof.Proof.Law
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open Cert.RowSoftmax

/-! ## Where each stage reads its operand -/

section Indices
variable (p : Fin 65536) (q : Fin 512) (k : Fin 1024) (c : Fin 512) (u : Fin 1)

theorem lidx_at : lidx_main_v0 (ix2 p q) k = ix2 p k :=
  funext fun a => by match a with | ⟨0, _⟩ => rfl | ⟨1, _⟩ => rfl
theorem ridx_at : ridx_main_v0 (ix2 p q) k = ix2 q k :=
  funext fun a => by match a with | ⟨0, _⟩ => rfl | ⟨1, _⟩ => rfl
theorem idx1_at : idx_main_v1 (idx_main_v2 (ix2 p q)) = ix1 q :=
  funext fun a => by match a with | ⟨0, _⟩ => rfl
theorem idx4_at : idx_main_v4 (ix1 p) c = ix2 p c :=
  funext fun a => by match a with | ⟨0, _⟩ => rfl | ⟨1, _⟩ => rfl
theorem idx5_at : idx_main_v5 (ix2 p u) = ix1 p :=
  funext fun a => by match a with | ⟨0, _⟩ => rfl
theorem idx8_at : idx_main_v8 (ix2 p q) = ix2 p (0 : Fin 1) :=
  funext fun a => by match a with | ⟨0, _⟩ => rfl | ⟨1, _⟩ => rfl
theorem idx11_at : idx_main_v11 (ix1 p) c = ix2 p c :=
  funext fun a => by match a with | ⟨0, _⟩ => rfl | ⟨1, _⟩ => rfl
theorem idx12_at : idx_main_v12 (ix2 p u) = ix1 p :=
  funext fun a => by match a with | ⟨0, _⟩ => rfl
theorem idx15_at : idx_main_v15 (ix2 p q) = ix2 p (0 : Fin 1) :=
  funext fun a => by match a with | ⟨0, _⟩ => rfl | ⟨1, _⟩ => rfl
theorem idx20_at : idx_main_v20 (ix2 p q) = ix2 p (0 : Fin 1) :=
  funext fun a => by match a with | ⟨0, _⟩ => rfl | ⟨1, _⟩ => rfl
theorem idx22_at : idx_main_v22 (idx_main_v23 (ix2 p q)) = ix1 q :=
  funext fun a => by match a with | ⟨0, _⟩ => rfl
theorem idx25_at : idx_main_v25 (idx_main_v26 (ix2 p q)) = ix1 q :=
  funext fun a => by match a with | ⟨0, _⟩ => rfl
theorem idx34_at : idx_main_v34 (idx_main_v35 (ix2 p q)) = ix1 p :=
  funext fun a => by match a with | ⟨0, _⟩ => rfl
theorem idx38_at : idx_main_v38 (ix1 p) c = ix2 p c :=
  funext fun a => by match a with | ⟨0, _⟩ => rfl | ⟨1, _⟩ => rfl
theorem idx39_at : idx_main_v39 (idx_main_v40 (ix2 p q)) = ix1 p :=
  funext fun a => by match a with | ⟨0, _⟩ => rfl

end Indices

/-- The one witness of the row reduction's shape fact that the fold lemmas name the inserted index by. -/
theorem red : S65536x512.Reduces [1] S65536 := by decide

/-- The host's maximum over the columns of a `[65536, 512]` array, at row `p`: the fold of `max` from the initial value over
    that row's 512 entries. -/
theorem hostRowMax (v : FVec Ideal S65536x512 .f32) (init : FVec Ideal S_ .f32) (p : Fin 65536) :
    Host.reduce (FloatOps.maximumf (F := Ideal) (φ := .f32)) v init reducesTo_S65536x512_S65536_d1 h_S_ (ix1 p)
      = (Finset.univ : Finset (Fin 512)).fold max (init (Shape.Idx.first h_S_)) (fun k => v (ix2 p k)) := by
  refine (Host.reduce_eq_fold_single (FloatOps.maximumf (F := Ideal) (φ := .f32)) v init reducesTo_S65536x512_S65536_d1 red h_S_
    (ix1 p)).trans ?_
  have e : (v ∘ red.lift (ix1 p)) = fun k : Fin 512 => v (ix2 p k) :=
    funext fun k => congrArg v (funext fun a => Fin.ext (by
      match a with
      | ⟨0, _⟩ => rfl
      | ⟨1, _⟩ => rfl))
  exact congrArg (fun (f : Fin 512 → EReal) => (Finset.univ : Finset (Fin 512)).fold max (init (Shape.Idx.first h_S_)) f) e

/-! ## The stages -/

section Stages
variable (x0 : (⟨S65536x1024, .f32⟩ : BufTy).Contents (Elt Ideal)) (x1 : (⟨S512x1024, .f32⟩ : BufTy).Contents (Elt Ideal))
  (x2 x3 x4 : (⟨S512, .f32⟩ : BufTy).Contents (Elt Ideal)) (x5 : (⟨S1, .f32⟩ : BufTy).Contents (Elt Ideal))
  (p : Fin 65536) (q : Fin 512) (u : Fin 1)

/-- Row `p` of the product plus bias. -/
def rowA : Fin 512 → EReal := acc (rowX x0 p) (matW x1) (vec x2)
/-- Row `p` after the reference's affine step. -/
def rowZ : Fin 512 → EReal := affineR (rowA x0 x1 x2 p) (vec x3) (vec x4) (x5 (ix1 0))

theorem v3_at : val_main_v3 (F := Ideal) x0 x1 x2 (ix2 p q) = rowA x0 x1 x2 p q := by
  rw [val_main_v3_apply, val_main_v0_apply, val_main_v2_apply, val_main_v1_apply]
  simp only [lidx_at, ridx_at, idx1_at]
  rfl

theorem v4_at : val_main_v4 (F := Ideal) x0 x1 x2 (ix1 p) = ∑ k : Fin 512, rowA x0 x1 x2 p k := by
  rw [val_main_v4_apply, val_main_cst_apply]
  simp only [idx4_at, v3_at, Ideal.ofBits_def, Ideal.ofBits_zero_f32, zero_add]

theorem v7_at : val_main_v7 (F := Ideal) x0 x1 x2 (ix2 p u) = mean (rowA x0 x1 x2 p) := by
  rw [val_main_v7_apply, val_main_v5_apply, val_main_v6_apply, val_main_cst_0_apply]
  simp only [idx5_at, v4_at]
  rfl

theorem v9_at : val_main_v9 (F := Ideal) x0 x1 x2 (ix2 p q) = cen (rowA x0 x1 x2 p) q := by
  rw [val_main_v9_apply, val_main_v8_apply]
  simp only [idx8_at, v3_at, v7_at]
  rfl

theorem v11_at : val_main_v11 (F := Ideal) x0 x1 x2 (ix1 p)
    = ∑ k : Fin 512, cen (rowA x0 x1 x2 p) k * cen (rowA x0 x1 x2 p) k := by
  rw [val_main_v11_apply, val_main_cst_1_apply]
  simp only [idx11_at, val_main_v10_apply, v9_at, Ideal.ofBits_def, Ideal.ofBits_zero_f32, zero_add, Ideal.mulf_def]

theorem v14_at : val_main_v14 (F := Ideal) x0 x1 x2 (ix2 p u) = var (rowA x0 x1 x2 p) := by
  rw [val_main_v14_apply, val_main_v12_apply, val_main_v13_apply, val_main_cst_2_apply]
  simp only [idx12_at, v11_at]
  rfl

theorem v16_at : val_main_v16 (F := Ideal) x0 x1 x2 (ix2 p q) = cen (rowA x0 x1 x2 p) q := by
  rw [val_main_v16_apply, val_main_v15_apply]
  simp only [idx15_at, v3_at, v7_at]
  rfl

theorem v21_at : val_main_v21 (F := Ideal) x0 x1 x2 (ix2 p q)
    = Ideal.div (cen (rowA x0 x1 x2 p) q) (Ideal.sqrt (var (rowA x0 x1 x2 p) + eps)) := by
  rw [val_main_v21_apply, val_main_v20_apply, val_main_v19_apply, val_main_v18_apply, val_main_v17_apply, val_main_cst_3_apply]
  simp only [idx20_at, v16_at, v14_at]
  rfl

/-- The `[1]` array read as a scalar is its one entry. -/
theorem v28_at (j : S_.Idx) : val_main_v28 (F := Ideal) x5 j = x5 (ix1 0) := by
  unfold val_main_v28
  refine shapeCast_apply x5 shapeCasts_S1_S_ j (ix1 0) ?_
  have h1 : (S1.rowMajor (ix1 0)).val = 0 := Nat.lt_one_iff.mp (show (S1.rowMajor (ix1 0)).val < 1 from (S1.rowMajor (ix1 0)).isLt)
  have h2 : (S_.rowMajor j).val = 0 := Nat.lt_one_iff.mp (show (S_.rowMajor j).val < 1 from (S_.rowMajor j).isLt)
  exact h1.trans h2.symm

theorem v30_at : val_main_v30 (F := Ideal) x0 x1 x2 x3 x4 x5 (ix2 p q) = rowZ x0 x1 x2 x3 x4 x5 p q := by
  rw [val_main_v30_apply, val_main_v27_apply, val_main_v24_apply, val_main_v23_apply, val_main_v22_apply,
    val_main_v26_apply, val_main_v25_apply, val_main_v29_apply]
  simp only [idx22_at, idx25_at, v21_at, v28_at]
  rfl

/-- The row maximum the host takes of row `p`. -/
theorem v31_at : val_main_v31 (F := Ideal) x0 x1 x2 x3 x4 x5 (ix1 p) = rowMax (rowZ x0 x1 x2 x3 x4 x5 p) := by
  unfold val_main_v31
  refine (hostRowMax (val_main_v30 (F := Ideal) x0 x1 x2 x3 x4 x5) (val_main_cst_4 (F := Ideal)) p).trans ?_
  have e : (fun k : Fin 512 => val_main_v30 (F := Ideal) x0 x1 x2 x3 x4 x5 (ix2 p k)) = rowZ x0 x1 x2 x3 x4 x5 p :=
    funext fun k => v30_at x0 x1 x2 x3 x4 x5 p k
  rw [e]
  exact congrArg (fun b => (Finset.univ : Finset (Fin 512)).fold max b (rowZ x0 x1 x2 x3 x4 x5 p)) neg_inf_eq

theorem v33_at : val_main_v33 (F := Ideal) x0 x1 x2 x3 x4 x5 (ix1 p) = rowMax (rowZ x0 x1 x2 x3 x4 x5 p) := by
  rw [val_main_v33_apply, val_main_v32_apply, val_main_cst_5_apply, v31_at]
  show max (Ideal.ofBits .f32 0xFF800000#32) _ = _
  rw [neg_inf_eq]
  exact max_eq_right bot_le

theorem v37_at : val_main_v37 (F := Ideal) x0 x1 x2 x3 x4 x5 (ix2 p q)
    = Ideal.exp (rowZ x0 x1 x2 x3 x4 x5 p q - rowMax (rowZ x0 x1 x2 x3 x4 x5 p)) := by
  rw [val_main_v37_apply, val_main_v36_apply, val_main_v35_apply, val_main_v34_apply]
  simp only [idx34_at, v30_at, v33_at]
  rfl

theorem v38_at : val_main_v38 (F := Ideal) x0 x1 x2 x3 x4 x5 (ix1 p)
    = ∑ k : Fin 512, Ideal.exp (rowZ x0 x1 x2 x3 x4 x5 p k - rowMax (rowZ x0 x1 x2 x3 x4 x5 p)) := by
  rw [val_main_v38_apply, val_main_cst_6_apply]
  simp only [idx38_at, v37_at, Ideal.ofBits_def, Ideal.ofBits_zero_f32, zero_add]

theorem v41_at : val_main_v41 (F := Ideal) x0 x1 x2 x3 x4 x5 (ix2 p q) = softmax (rowZ x0 x1 x2 x3 x4 x5 p) q := by
  rw [val_main_v41_apply, val_main_v40_apply, val_main_v39_apply]
  simp only [idx39_at, v37_at, v38_at]
  rfl

end Stages

/-- THE REFERENCE IS THE SPECIFICATION: its last stage is `GR` of the six arguments. -/
theorem ref_eq (x0 : (⟨S65536x1024, .f32⟩ : BufTy).Contents (Elt Ideal)) (x1 : (⟨S512x1024, .f32⟩ : BufTy).Contents (Elt Ideal))
    (x2 x3 x4 : (⟨S512, .f32⟩ : BufTy).Contents (Elt Ideal)) (x5 : (⟨S1, .f32⟩ : BufTy).Contents (Elt Ideal)) :
    val_main_v41 (F := Ideal) x0 x1 x2 x3 x4 x5 = GR x0 x1 x2 x3 x4 x5 := by
  funext i
  obtain ⟨p, q, rfl⟩ : ∃ (p : Fin 65536) (q : Fin 512), i = ix2 p q := ⟨i 0, i 1, eq_ix2 i⟩
  exact v41_at x0 x1 x2 x3 x4 x5 p q

end Cert.ReferenceIdeal.RefValue

end
-- ==== Proof.LibCols.lean ====
/-
  A column of per-row numbers against a matrix, read entry by entry. A vector of `a` entries made a column `[a, 1]`
  reads its entry `p` at `(p, 0)`; a column repeated across `b` columns reads its entry `p` at `(p, c)`. Both in the
  vector unit's spelling (a shape cast, a broadcast) and in the host's (two `broadcast_in_dim`s). These are the forms
  a keep-dimensions row reduction takes on its way back to the matrix it was reduced from.
-/
import Idealize.ShloMosaic.Lib.Pipeline.Value
import Idealize.ShloMosaic.Lib.ValueIdx
import Idealize.ShloMosaic.Lib.ValueLayout

namespace Cert.LibCols

open Idealize.ShloMosaic Idealize.ShloMosaic.ValueIdx

variable {α : Type}

/-- An `[a]` array cast to `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's column: an `[a]` vector broadcast along axis 0 into `[a, 1]` reads, at `(p, u)`, the vector's entry `p`. -/
theorem inDim_a_a1_apply {a : ℕ} (v : (⟨1, ![a]⟩ : Shape).Idx → α) (h : (⟨1, ![a]⟩ : Shape).BroadcastsInDim ⟨2, ![a, 1]⟩ ![0])
    (p : Fin a) (u : Fin 1) : broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- The host's repeated column: an `[a, 1]` array broadcast along both axes into `[a, b]` reads, at `(p, c)`, entry `p`. -/
theorem inDim_a1_ab_apply {a b : ℕ} (v : (⟨2, ![a, 1]⟩ : Shape).Idx → α) (h : (⟨2, ![a, 1]⟩ : Shape).BroadcastsInDim ⟨2, ![a, b]⟩ ![0, 1])
    (p : Fin a) (c : Fin b) : broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

end Cert.LibCols
-- ==== Proof.KernelRow.lean ====
/-
  The kernel's body on one block, read entry by entry.

  On a block of 1024 rows the body computes, for every row `r` at once, the row of the matrix product with the
  weights' transpose plus the bias (`kAcc`), its deviations from the row mean (`kCen`), the affine step
  (`kAff`: times the reciprocal root of the mean squared deviation plus `eps`, times the scale row, plus the shift
  row), and the exponential of the difference to the row maximum (`kExp`). Each row statistic is a reduction along
  the columns kept as a `[1024, 1]` column and repeated across the 512 columns, so an entry `(r, q)` of each stage
  depends on row `r` of its operand only: it is the row function of Spec.lean at `q`.
-/
import proofs.«156195_j19688130085503_2_alg».proof.Proof.Gen.KernelIdeal.Skeleton
import proofs.«156195_j19688130085503_2_alg».proof.Proof.Spec
import proofs.«156195_j19688130085503_2_alg».proof.Proof.Law
import proofs.«156195_j19688130085503_2_alg».proof.Proof.LibCols
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RowValue

open Cert.KernelIdeal Cert.KernelIdeal.Gen Idealize.ShloMosaic Idealize.ShloMosaic.ValueIdx Cert.RowSoftmax Cert.LibCols

/-! ## The body as four stages -/

section Stages
variable {F : FTy → Type} [FloatOps F]

/-- The block's rows times the weights' transpose, plus the bias row repeated down the rows. -/
def kAcc (P0 : Vec F S1024x1024 .f32) (P1 : Vec F S512x1024 .bf16) (P2 : Vec F S1x512 .f32) : FVec F S1024x512 .f32 :=
  addf (matmul dot_S1024x1024_S512x1024_S1024x512_1_1_0_0_n_n none (truncf .bf16 P0 bitsLt_bf16_f32)
      (shapeCast S512x1024 P1 shapeCasts_S512x1024_S512x1024) (constant S1024x512 .f32 0x00000000#32))
    (broadcastTo S1024x512 (shapeCast S1x512 P2 shapeCasts_S1x512_S1x512) broadcasts_S1x512_S1024x512)

/-- The column of row means: each row's sum over its 512 columns, divided by 512. -/
def kMeanCol (v : FVec F S1024x512 .f32) : FVec F S1024x1 .f32 :=
  divf (shapeCast S1024x1 (multiReduction .add [1] S1024 v 0x00000000#32 reduces_S1024x512_S1024 (.inl rfl) rfl) shapeCasts_S1024_S1024x1)
    (broadcast S1024x1 (Scalar.ofBits .f32 0x44000000#32))

/-- Every entry minus its row's mean. -/
def kCen (v : FVec F S1024x512 .f32) : FVec F S1024x512 .f32 :=
  subf v (broadcastTo S1024x512 (kMeanCol v) broadcasts_S1024x1_S1024x512)

/-- The affine step on deviations `v`: times the reciprocal root of the row's mean square plus `eps`, times the scale
    row, plus the shift row. -/
def kAff (v : FVec F S1024x512 .f32) (P3 P4 : Vec F S1x512 .f32) : FVec F S1024x512 .f32 :=
  addf (mulf (mulf v (broadcastTo S1024x512 (rsqrt (addf (kMeanCol (mulf v v)) (broadcast S1024x1 (Scalar.ofBits .f32 0x3727C5AC#32))))
        broadcasts_S1024x1_S1024x512))
      (broadcastTo S1024x512 (shapeCast S1x512 P3 shapeCasts_S1x512_S1x512) broadcasts_S1x512_S1024x512))
    (broadcastTo S1024x512 (shapeCast S1x512 P4 shapeCasts_S1x512_S1x512) broadcasts_S1x512_S1024x512)

/-- The exponential of every entry minus its row's maximum. -/
def kExp (v : FVec F S1024x512 .f32) : FVec F S1024x512 .f32 :=
  exp (subf v (broadcastTo S1024x512 (shapeCast S1024x1
    (multiReduction .maximumf [1] S1024 v 0xFF800000#32 reduces_S1024x512_S1024 (.inl rfl) rfl) shapeCasts_S1024_S1024x1)
    broadcasts_S1024x1_S1024x512))

/-- The body's value before the final quotient is the four stages composed. -/
theorem pay2_eq (P0 : Vec F S1024x1024 .f32) (P1 : Vec F S512x1024 .bf16) (P2 P3 P4 : Vec F S1x512 .f32) :
    k0_pay2 P0 P1 P2 P3 P4 = kExp (kAff (kCen (kAcc P0 P1 P2)) P3 P4) := rfl

end Stages

/-! ## Reductions along a row -/

/-- The sum over the columns of a `[1024, 512]` block, at row `r`. -/
theorem rowSum_apply (v : FVec Ideal S1024x512 .f32) (hφ : FKind.Formats .f32)
    (hacc : (0x00000000#32 : BitVec 32) = FKind.add.neutral .f32 hφ) (r : Fin 1024) :
    multiReduction .add [1] S1024 v 0x00000000#32 reduces_S1024x512_S1024 hφ hacc (ix1 r) = ∑ k : Fin 512, v (ix2 r k) := by
  refine (Ideal.multiReduction_add_single v 0x00000000#32 reduces_S1024x512_S1024 hφ hacc (ix1 r)).trans ?_
  exact Finset.sum_congr rfl fun k _ => congrArg v (funext fun a => Fin.ext (by
    match a with
    | ⟨0, _⟩ => rfl
    | ⟨1, _⟩ => rfl))

/-- The maximum over the columns of a `[1024, 512]` block, at row `r`. -/
theorem rowMax_apply (v : FVec Ideal S1024x512 .f32) (hφ : FKind.Formats .f32)
    (hacc : (0xFF800000#32 : BitVec 32) = FKind.maximumf.neutral .f32 hφ) (r : Fin 1024) :
    multiReduction .maximumf [1] S1024 v 0xFF800000#32 reduces_S1024x512_S1024 hφ hacc (ix1 r) = rowMax (fun k => v (ix2 r k)) := by
  refine (Ideal.multiReduction_maximumf_single v 0xFF800000#32 reduces_S1024x512_S1024 hφ hacc (ix1 r)).trans ?_
  have e : (v ∘ reduces_S1024x512_S1024.lift (ix1 r)) = fun k : Fin 512 => v (ix2 r k) :=
    funext fun k => congrArg v (funext fun a => Fin.ext (by
      match a with
      | ⟨0, _⟩ => rfl
      | ⟨1, _⟩ => rfl))
  exact congrArg₂ (fun (b : EReal) (f : Fin 512 → EReal) => (Finset.univ : Finset (Fin 512)).fold max b f) neg_inf_eq e

/-- A `[1, 512]` row repeated down 1024 rows reads, at `(r, q)`, the row's entry `q`. -/
theorem rowBcast_apply (P : FVec Ideal S1x512 .f32) (r : Fin 1024) (q : Fin 512) :
    broadcastTo S1024x512 (shapeCast S1x512 P shapeCasts_S1x512_S1x512) broadcasts_S1x512_S1024x512 (ix2 r q) = P (ix2 (0 : Fin 1) q) :=
  (broadcastTo_1b_ab_apply _ _ r q).trans (congrFun (shapeCast_self P _) _)

/-! ## The stages at an entry -/

/-- The column of row means at row `r`. -/
theorem kMeanCol_apply (v : FVec Ideal S1024x512 .f32) (r : Fin 1024) (u : Fin 1) :
    kMeanCol v (ix2 r u) = Ideal.div (∑ k : Fin 512, v (ix2 r k)) c512 := by
  show Ideal.div (shapeCast S1024x1 (multiReduction .add [1] S1024 v 0x00000000#32 reduces_S1024x512_S1024 (.inl rfl) rfl)
    shapeCasts_S1024_S1024x1 (ix2 r u)) (Ideal.ofBits .f32 0x44000000#32) = _
  refine congrArg (fun z => Ideal.div z c512) ?_
  refine (shapeCast_a_a1_apply _ _ r u).trans ?_
  exact rowSum_apply v _ _ r

/-- The deviations at `(r, q)` are the row's deviation at `q`. -/
theorem kCen_apply (v : FVec Ideal S1024x512 .f32) (r : Fin 1024) (q : Fin 512) :
    kCen v (ix2 r q) = cen (fun k => v (ix2 r k)) q := by
  show v (ix2 r q) - broadcastTo S1024x512 (kMeanCol v) broadcasts_S1024x1_S1024x512 (ix2 r q) = _
  unfold cen mean
  refine congrArg (fun z => v (ix2 r q) - z) ?_
  exact (broadcastTo_a1_ab_apply _ _ r q).trans (kMeanCol_apply v r 0)

/-- The affine step at `(r, q)`. -/
theorem kAff_apply (v : FVec Ideal S1024x512 .f32) (P3 P4 : FVec Ideal S1x512 .f32) (r : Fin 1024) (q : Fin 512) :
    kAff v P3 P4 (ix2 r q)
      = v (ix2 r q) * Ideal.rsqrt (Ideal.div (∑ k : Fin 512, v (ix2 r k) * v (ix2 r k)) c512 + eps) * P3 (ix2 (0 : Fin 1) q)
        + P4 (ix2 (0 : Fin 1) q) := by
  have h1 : broadcastTo S1024x512 (rsqrt (addf (kMeanCol (mulf v v)) (broadcast S1024x1 (Scalar.ofBits .f32 0x3727C5AC#32))))
      broadcasts_S1024x1_S1024x512 (ix2 r q)
      = Ideal.rsqrt (Ideal.div (∑ k : Fin 512, v (ix2 r k) * v (ix2 r k)) c512 + eps) :=
    (broadcastTo_a1_ab_apply _ _ r q).trans (congrArg (fun z => Ideal.rsqrt (z + eps)) (kMeanCol_apply (mulf v v) r 0))
  have h2 := rowBcast_apply P3 r q
  have h3 := rowBcast_apply P4 r q
  show v (ix2 r q) * broadcastTo S1024x512 (rsqrt (addf (kMeanCol (mulf v v)) (broadcast S1024x1 (Scalar.ofBits .f32 0x3727C5AC#32))))
        broadcasts_S1024x1_S1024x512 (ix2 r q)
      * broadcastTo S1024x512 (shapeCast S1x512 P3 shapeCasts_S1x512_S1x512) broadcasts_S1x512_S1024x512 (ix2 r q)
      + broadcastTo S1024x512 (shapeCast S1x512 P4 shapeCasts_S1x512_S1x512) broadcasts_S1x512_S1024x512 (ix2 r q) = _
  rw [h1, h2, h3]

/-- The exponential stage at `(r, q)`. -/
theorem kExp_apply (v : FVec Ideal S1024x512 .f32) (r : Fin 1024) (q : Fin 512) :
    kExp v (ix2 r q) = Ideal.exp (v (ix2 r q) - rowMax (fun k => v (ix2 r k))) := by
  show Ideal.exp (v (ix2 r q) - broadcastTo S1024x512 (shapeCast S1024x1
    (multiReduction .maximumf [1] S1024 v 0xFF800000#32 reduces_S1024x512_S1024 (.inl rfl) rfl) shapeCasts_S1024_S1024x1)
    broadcasts_S1024x1_S1024x512 (ix2 r q)) = _
  refine congrArg (fun z => Ideal.exp (v (ix2 r q) - z)) ?_
  exact (broadcastTo_a1_ab_apply _ _ r q).trans ((shapeCast_a_a1_apply _ _ r 0).trans (rowMax_apply v _ _ r))

/-! ## The matrix product at an entry -/

theorem lhs_0 (i : S1024x512.Idx) (c : dot_S1024x1024_S512x1024_S1024x512_1_1_0_0_n_n.contr.Idx) :
    (dot_S1024x1024_S512x1024_S1024x512_1_1_0_0_n_n.lhsIdx i c 0).val = (i 0).val := by
  unfold DotDims.lhsIdx
  rw [dif_neg (show ¬(0 : Fin S1024x1024.rank) ∈ dot_S1024x1024_S512x1024_S1024x512_1_1_0_0_n_n.lhsBatch by decide),
    dif_pos (show (0 : Fin S1024x1024.rank) ∈ dot_S1024x1024_S512x1024_S1024x512_1_1_0_0_n_n.lhsNonContracting by decide)]
  rfl
theorem lhs_1 (i : S1024x512.Idx) (c : dot_S1024x1024_S512x1024_S1024x512_1_1_0_0_n_n.contr.Idx) :
    (dot_S1024x1024_S512x1024_S1024x512_1_1_0_0_n_n.lhsIdx i c 1).val = (c ⟨0, by decide⟩).val :=
  dot_S1024x1024_S512x1024_S1024x512_1_1_0_0_n_n.lhsIdx_val_of_single rfl i c
theorem rhs_0 (i : S1024x512.Idx) (c : dot_S1024x1024_S512x1024_S1024x512_1_1_0_0_n_n.contr.Idx) :
    (dot_S1024x1024_S512x1024_S1024x512_1_1_0_0_n_n.rhsIdx i c 0).val = (i 1).val := by
  unfold DotDims.rhsIdx
  rw [dif_neg (show ¬(0 : Fin S512x1024.rank) ∈ dot_S1024x1024_S512x1024_S1024x512_1_1_0_0_n_n.rhsBatch by decide),
    dif_pos (show (0 : Fin S512x1024.rank) ∈ dot_S1024x1024_S512x1024_S1024x512_1_1_0_0_n_n.rhsNonContracting by decide)]
  rfl
theorem rhs_1 (i : S1024x512.Idx) (c : dot_S1024x1024_S512x1024_S1024x512_1_1_0_0_n_n.contr.Idx) :
    (dot_S1024x1024_S512x1024_S1024x512_1_1_0_0_n_n.rhsIdx i c 1).val = (c ⟨0, by decide⟩).val :=
  dot_S1024x1024_S512x1024_S1024x512_1_1_0_0_n_n.rhsIdx_val_of_single rfl i c

/-- The product with the weights' transpose into a zero accumulator, at `(r, q)`: the sum over the 1024 contracted
    positions of row `r` of the block times row `q` of the weights. -/
theorem matmul_entry (L : FVec Ideal S1024x1024 .bf16) (R : FVec Ideal S512x1024 .bf16) (r : Fin 1024) (q : Fin 512) :
    matmul dot_S1024x1024_S512x1024_S1024x512_1_1_0_0_n_n none L R (constant S1024x512 .f32 0x00000000#32) (ix2 r q)
      = ∑ k : Fin 1024, L (ix2 r k) * R (ix2 q k) := by
  refine (Ideal.matmul_constant_zero_apply dot_S1024x1024_S512x1024_S1024x512_1_1_0_0_n_n none L R (ix2 r q)).trans ?_
  rw [← Equiv.sum_comp (ValueIdx.contrEquiv1 dot_S1024x1024_S512x1024_S1024x512_1_1_0_0_n_n 1024 rfl rfl).symm]
  refine Finset.sum_congr rfl fun k _ => ?_
  have hk := ValueIdx.contrEquiv1_symm_val dot_S1024x1024_S512x1024_S1024x512_1_1_0_0_n_n 1024 rfl rfl k
  have el : dot_S1024x1024_S512x1024_S1024x512_1_1_0_0_n_n.lhsIdx (ix2 r q)
      ((ValueIdx.contrEquiv1 dot_S1024x1024_S512x1024_S1024x512_1_1_0_0_n_n 1024 rfl rfl).symm k) = ix2 r k :=
    funext fun a => Fin.ext (by
      match a with
      | ⟨0, _⟩ => exact lhs_0 _ _
      | ⟨1, _⟩ => exact (lhs_1 _ _).trans hk)
  have er : dot_S1024x1024_S512x1024_S1024x512_1_1_0_0_n_n.rhsIdx (ix2 r q)
      ((ValueIdx.contrEquiv1 dot_S1024x1024_S512x1024_S1024x512_1_1_0_0_n_n 1024 rfl rfl).symm k) = ix2 q k :=
    funext fun a => Fin.ext (by
      match a with
      | ⟨0, _⟩ => exact rhs_0 _ _
      | ⟨1, _⟩ => exact (rhs_1 _ _).trans hk)
  rw [el, er]

/-- The product-plus-bias stage at `(r, q)` is the row function `acc` of row `r` of the block. -/
theorem kAcc_apply (P0 : FVec Ideal S1024x1024 .f32) (P1 : FVec Ideal S512x1024 .bf16) (P2 : FVec Ideal S1x512 .f32)
    (r : Fin 1024) (q : Fin 512) :
    kAcc (F := Ideal) P0 P1 P2 (ix2 r q)
      = acc (fun k => P0 (ix2 r k)) (fun q k => P1 (ix2 q k)) (fun q => P2 (ix2 (0 : Fin 1) q)) q := by
  show matmul dot_S1024x1024_S512x1024_S1024x512_1_1_0_0_n_n none (truncf .bf16 P0 bitsLt_bf16_f32)
        (shapeCast S512x1024 P1 shapeCasts_S512x1024_S512x1024) (constant S1024x512 .f32 0x00000000#32) (ix2 r q)
      + broadcastTo S1024x512 (shapeCast S1x512 P2 shapeCasts_S1x512_S1x512) broadcasts_S1x512_S1024x512 (ix2 r q) = _
  unfold acc
  refine congrArg₂ (fun (s b : EReal) => s + b) ?_ (rowBcast_apply P2 r q)
  refine (matmul_entry _ _ r q).trans ?_
  exact Finset.sum_congr rfl fun k _ => congrArg (fun z => P0 (ix2 r k) * z) (congrFun (shapeCast_self P1 _) _)

/-! ## The whole body at an entry -/

/-- The value the body exponentiates, at `(r, q)`: `exp (z q − max z)` for the row `z` of the kernel's affine step on
    row `r` of the block. -/
theorem pay2_apply (P0 : FVec Ideal S1024x1024 .f32) (P1 : FVec Ideal S512x1024 .bf16) (P2 P3 P4 : FVec Ideal S1x512 .f32)
    (r : Fin 1024) (q : Fin 512) :
    k0_pay2 (F := Ideal) P0 P1 P2 P3 P4 (ix2 r q)
      = Ideal.exp (affineK (acc (fun k => P0 (ix2 r k)) (fun q k => P1 (ix2 q k)) (fun q => P2 (ix2 (0 : Fin 1) q)))
            (fun q => P3 (ix2 (0 : Fin 1) q)) (fun q => P4 (ix2 (0 : Fin 1) q)) q
          - rowMax (affineK (acc (fun k => P0 (ix2 r k)) (fun q k => P1 (ix2 q k)) (fun q => P2 (ix2 (0 : Fin 1) q)))
            (fun q => P3 (ix2 (0 : Fin 1) q)) (fun q => P4 (ix2 (0 : Fin 1) q)))) := by
  have hA : (fun k => kAcc (F := Ideal) P0 P1 P2 (ix2 r k))
      = acc (fun k => P0 (ix2 r k)) (fun q k => P1 (ix2 q k)) (fun q => P2 (ix2 (0 : Fin 1) q)) :=
    funext fun k => kAcc_apply P0 P1 P2 r k
  have hC : ∀ k, kCen (kAcc (F := Ideal) P0 P1 P2) (ix2 r k)
      = cen (acc (fun k => P0 (ix2 r k)) (fun q k => P1 (ix2 q k)) (fun q => P2 (ix2 (0 : Fin 1) q))) k :=
    fun k => (kCen_apply _ r k).trans (congrArg (fun a => cen a k) hA)
  have hZ : ∀ k, kAff (kCen (kAcc (F := Ideal) P0 P1 P2)) P3 P4 (ix2 r k)
      = affineK (acc (fun k => P0 (ix2 r k)) (fun q k => P1 (ix2 q k)) (fun q => P2 (ix2 (0 : Fin 1) q)))
          (fun q => P3 (ix2 (0 : Fin 1) q)) (fun q => P4 (ix2 (0 : Fin 1) q)) k := fun k => by
    rw [kAff_apply]
    simp only [hC]
    rfl
  rw [pay2_eq, kExp_apply]
  simp only [hZ]

end Cert.KernelIdeal.RowValue

end
-- ==== Proof.KernelBlocks.lean ====
/-
  From blocks to the whole array: the kernel's result is `GK` of the six arguments.

  The grid has 64 points; point `t` stages rows `1024 t … 1024 t + 1023` of `x` and writes back the same rows of the
  result, and every point sees the whole weights (rounded to the narrower format, the identity here), the bias made
  a row, and the scale and shift vectors multiplied by the scalar and made rows. So entry `(r, q)` of the block point
  `t` writes is the specification's row function of row `1024 t + r` of `x`, at column `q`; the 64 blocks tile the
  `65536` rows, so the array ends holding `GK` everywhere.
-/
import proofs.«156195_j19688130085503_2_alg».proof.Proof.Gen.KernelIdeal.Value
import proofs.«156195_j19688130085503_2_alg».proof.Proof.KernelRow
import Idealize.ShloMosaic.Lib.StableHlo.Run
import Idealize.ShloMosaic.Lib.IdealHost
import Idealize.ShloMosaic.Lib.ValueLayout
import Idealize.ShloMosaic.Lib.Pipeline.Value

noncomputable section

namespace Cert.KernelIdeal.BlockValue

open Cert.KernelIdeal Cert.KernelIdeal.Gen Cert.KernelIdeal.RowValue Idealize.ShloMosaic Idealize.ShloMosaic.TcCoe Idealize.SL.Sem
open Idealize.ShloMosaic.StableHlo Idealize.ShloMosaic.ValueIdx Cert.RowSoftmax
open Idealize.ShloMosaic.Pipeline (Dat)

/-! ## One block, over variables -/

/-- The block the body leaves, at `(r, q)`: the softmax of the kernel's affine step on row `r` of the staged rows. -/
theorem E5_apply (P0 : FVec Ideal S1024x1024 .f32) (P1 : FVec Ideal S512x1024 .bf16) (P2 P3 P4 : FVec Ideal S1x512 .f32)
    (r : Fin 1024) (q : Fin 512) :
    Value.E5 (F := Ideal) P0 P1 P2 P3 P4 (ix2 r q)
      = softmax (affineK (acc (fun k => P0 (ix2 r k)) (fun q k => P1 (ix2 q k)) (fun q => P2 (ix2 (0 : Fin 1) q)))
          (fun q => P3 (ix2 (0 : Fin 1) q)) (fun q => P4 (ix2 (0 : Fin 1) q))) q := by
  have e0 : Value.ix5_0 (ix2 r q) = ix2 r q := funext fun a => by match a with | ⟨0, _⟩ => rfl | ⟨1, _⟩ => rfl
  have e1 : Value.ix5_1 (ix2 r q) = ix1 r := funext fun a => by match a with | ⟨0, _⟩ => rfl
  show Ideal.div (k0_pay2 (F := Ideal) P0 P1 P2 P3 P4 (Value.ix5_0 (ix2 r q)))
    (multiReduction .add [1] S1024 (k0_pay2 (F := Ideal) P0 P1 P2 P3 P4) 0x00000000#32 reduces_S1024x512_S1024 (.inl rfl) rfl
      (Value.ix5_1 (ix2 r q))) = _
  unfold softmax
  refine congrArg₂ Ideal.div ?_ ?_
  · exact (congrArg (k0_pay2 (F := Ideal) P0 P1 P2 P3 P4) e0).trans (pay2_apply P0 P1 P2 P3 P4 r q)
  · refine (congrArg (multiReduction .add [1] S1024 (k0_pay2 (F := Ideal) P0 P1 P2 P3 P4) 0x00000000#32 reduces_S1024x512_S1024
      (.inl rfl) rfl) e1).trans ?_
    refine (rowSum_apply _ _ _ r).trans ?_
    exact Finset.sum_congr rfl fun k _ => pay2_apply P0 P1 P2 P3 P4 r k

/-- A block whose staged operands are the arguments' rows and vectors is the matching piece of `GK`: if block row `y 0`
    is row `i 0` of `x`, the weights, bias, scale and shift blocks are the whole weights, the bias, and the scale and
    shift times the scalar, and the column is the same, the block at `y` is `GK` at `i`. -/
theorem block_value (x : (⟨2, ![65536, 1024]⟩ : Shape).Idx → EReal) (w : (⟨2, ![512, 1024]⟩ : Shape).Idx → EReal)
    (b γ β : (⟨1, ![512]⟩ : Shape).Idx → EReal) (s : (⟨1, ![1]⟩ : Shape).Idx → EReal)
    (P0 : FVec Ideal S1024x1024 .f32) (P1 : FVec Ideal S512x1024 .bf16) (P2 P3 P4 : FVec Ideal S1x512 .f32)
    (y : S1024x512.Idx) (i : S65536x512.Idx) (hi : (i 1).val = (y 1).val)
    (h0 : ∀ k : Fin 1024, P0 (ix2 (y 0) k) = x (ix2 (i 0) k))
    (h1 : ∀ (q : Fin 512) (k : Fin 1024), P1 (ix2 q k) = w (ix2 q k))
    (h2 : ∀ q : Fin 512, P2 (ix2 (0 : Fin 1) q) = b (ix1 q))
    (h3 : ∀ q : Fin 512, P3 (ix2 (0 : Fin 1) q) = γ (ix1 q) * s (ix1 0))
    (h4 : ∀ q : Fin 512, P4 (ix2 (0 : Fin 1) q) = β (ix1 q) * s (ix1 0)) :
    Value.E5 (F := Ideal) P0 P1 P2 P3 P4 y = GK x w b γ β s i := by
  obtain ⟨r, q, rfl⟩ : ∃ (r : Fin 1024) (q : Fin 512), y = ix2 r q := ⟨y 0, y 1, eq_ix2 y⟩
  obtain ⟨p, q', rfl⟩ : ∃ (p : Fin 65536) (q' : Fin 512), i = ix2 p q' := ⟨i 0, i 1, eq_ix2 i⟩
  obtain rfl : q' = q := Fin.ext hi
  rw [E5_apply]
  unfold GK
  have eA : acc (fun k => P0 (ix2 r k)) (fun q k => P1 (ix2 q k)) (fun q => P2 (ix2 (0 : Fin 1) q))
      = acc (rowX x p) (matW w) (vec b) := by
    unfold rowX matW vec
    exact congr (congr (congrArg acc (funext h0)) (funext fun q => funext fun k => h1 q k)) (funext h2)
  rw [eA, funext h3, funext h4]

/-! ## What the host writes before the region -/

/-- A `[512]` vector times the one entry of a `[1]` array, made a `[1, 512]` row. -/
def scaleRow (g : FVec Ideal S512 .f32) (s : FVec Ideal S1 .f32) : FVec Ideal S1x512 .f32 :=
  shapeCast S1x512 (mulf g (broadcastInDim S512 ![] bcast_S_S512 (shapeCast S_ s shapeCasts_S1_S_))) shapeCasts_S512_S1x512

/-- The `[1]` array read as a scalar is its one entry. -/
theorem scalar_apply (s : FVec Ideal S1 .f32) (j : S_.Idx) : shapeCast S_ s shapeCasts_S1_S_ j = s (ix1 0) := by
  refine shapeCast_apply s shapeCasts_S1_S_ j (ix1 0) ?_
  have h1 : (S1.rowMajor (ix1 0)).val = 0 := Nat.lt_one_iff.mp (show (S1.rowMajor (ix1 0)).val < 1 from (S1.rowMajor (ix1 0)).isLt)
  have h2 : (S_.rowMajor j).val = 0 := Nat.lt_one_iff.mp (show (S_.rowMajor j).val < 1 from (S_.rowMajor j).isLt)
  exact h1.trans h2.symm

theorem scaleRow_apply (g : FVec Ideal S512 .f32) (s : FVec Ideal S1 .f32) (q : Fin 512) :
    scaleRow g s (ix2 (0 : Fin 1) q) = g (ix1 q) * s (ix1 0) := by
  unfold scaleRow
  refine (shapeCast_a_1a_apply _ _ (0 : Fin 1) q).trans ?_
  show g (ix1 q) * broadcastInDim S512 ![] bcast_S_S512 (shapeCast S_ s shapeCasts_S1_S_) (ix1 q) = _
  exact congrArg (fun z => g (ix1 q) * z) ((broadcastInDim_scalar_apply _ _ _).trans (scalar_apply s _))

variable (m : (ℓ : Loc nD τ sig) → Buf (Elt Ideal) ℓ) (ρ : Dev nD → PrngReg)

/-- The weights as the region finds them: the argument, entry by entry (the narrowing is the identity). -/
theorem V_v0 (c : Dev nD) : (V m c main_v0 : S512x1024.Idx → EReal)
    = fun i => (m ((c : Thread nD τ).loc main_arg1) : S512x1024.Idx → EReal) i := by
  dsimp only [Gen.V, Gen.hostOps0]
  after_results
  rfl

/-- The bias as the region finds it: the argument made a row. -/
theorem V_v1 (c : Dev nD) : (V m c main_v1 : S1x512.Idx → EReal)
    = shapeCast S1x512 (m ((c : Thread nD τ).loc main_arg2) : S512.Idx → EReal) shapeCasts_S512_S1x512 := by
  dsimp only [Gen.V, Gen.hostOps0]
  after_results
  rfl

/-- The scale row as the region finds it. -/
theorem V_v5 (c : Dev nD) : (V m c main_v5 : S1x512.Idx → EReal)
    = scaleRow (m ((c : Thread nD τ).loc main_arg3)) (m ((c : Thread nD τ).loc main_arg5)) := by
  dsimp only [Gen.V, Gen.hostOps0]
  after_results
  rfl

/-- The shift row as the region finds it. -/
theorem V_v9 (c : Dev nD) : (V m c main_v9 : S1x512.Idx → EReal)
    = scaleRow (m ((c : Thread nD τ).loc main_arg4)) (m ((c : Thread nD τ).loc main_arg5)) := by
  dsimp only [Gen.V, Gen.hostOps0]
  after_results
  rfl

/-! ## The blocks -/

theorem hz : (![0, 0] : Fin 2 → Nat) = fun _ => 0 := funext fun a => by fin_cases a <;> rfl

/-- Where each window's block sits at point `t`: the rows of `x` and of the result move with `t`, the other four windows
    stay at the origin (decided over the 64 points). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The result the arguments determine. -/
def result (c : Dev nD) : S65536x512.Idx → EReal :=
  GK (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- WHAT POINT `t` WRITES BACK is block `t` of the result. -/
theorem flushed_eq (c : Dev nD) (t : Fin cfg0.N) :
    (dats m 0 c).flushed 5 t = ((cfg0.win 5).blk t).view.read (Elt Ideal) (result m c) := by
  rw [Value.flushed5]
  obtain ⟨e00, e01, e10, e11, e20, e21, e30, e31, e40, e41, e50, e51⟩ := idx_facts t
  funext y
  show out0_5 (iblk m c 0 t) (iblk m c 1 t) (iblk m c 2 t) (iblk m c 3 t) (iblk m c 4 t) y
    = result m c (((cfg0.win 5).blk t).view.emb y)
  unfold out0_5
  simp only [View.ld_unit_zero (S := S1024x1024) hz, View.ld_unit_zero (S := S512x1024) hz, View.ld_unit_zero (S := S1x512) hz]
  refine (Value.canon5_eq (iblk m c 0 t) (iblk m c 1 t) (iblk m c 2 t) (iblk m c 3 t) (iblk m c 4 t) y).trans ?_
  refine block_value (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (iblk m c 0 t) (iblk m c 1 t) (iblk m c 2 t) (iblk m c 3 t) (iblk m c 4 t) y (((cfg0.win 5).blk t).view.emb y) ?_ ?_ ?_ ?_ ?_ ?_
  · show win0_5.index t (1 : Fin 2) * 512 + 1 * (y 1).val = (y 1).val
    rw [e51]; omega
  · intro k
    show V m c main_arg0 (((cfg0.win 0).blk t).view.emb (ix2 (y 0) k)) = _
    rw [V_main_arg0]
    refine congrArg _ (funext fun a => Fin.ext ?_)
    match a with
    | ⟨0, _⟩ =>
      show win0_0.index t (0 : Fin 2) * 1024 + 1 * (y 0).val = win0_5.index t (0 : Fin 2) * 1024 + 1 * (y 0).val
      rw [e00, e50]
    | ⟨1, _⟩ =>
      show win0_0.index t (1 : Fin 2) * 1024 + 1 * k.val = k.val
      rw [e01]; omega
  · intro q k
    show (V m c main_v0 : S512x1024.Idx → EReal) (((cfg0.win 1).blk t).view.emb (ix2 q k)) = _
    rw [V_v0]
    refine congrArg _ (funext fun a => Fin.ext ?_)
    match a with
    | ⟨0, _⟩ =>
      show win0_1.index t (0 : Fin 2) * 512 + 1 * q.val = q.val
      rw [e10]; omega
    | ⟨1, _⟩ =>
      show win0_1.index t (1 : Fin 2) * 1024 + 1 * k.val = k.val
      rw [e11]; omega
  · intro q
    show (V m c main_v1 : S1x512.Idx → EReal) (((cfg0.win 2).blk t).view.emb (ix2 (0 : Fin 1) q)) = _
    rw [V_v1]
    refine Eq.trans (congrArg _ (funext fun a => Fin.ext ?_)) (shapeCast_a_1a_apply _ _ (0 : Fin 1) q)
    match a with
    | ⟨0, _⟩ =>
      show win0_2.index t (0 : Fin 2) * 1 + 1 * 0 = 0
      rw [e20]
    | ⟨1, _⟩ =>
      show win0_2.index t (1 : Fin 2) * 512 + 1 * q.val = q.val
      rw [e21]; omega
  · intro q
    show (V m c main_v5 : S1x512.Idx → EReal) (((cfg0.win 3).blk t).view.emb (ix2 (0 : Fin 1) q)) = _
    rw [V_v5]
    refine Eq.trans (congrArg _ (funext fun a => Fin.ext ?_)) (scaleRow_apply _ _ q)
    match a with
    | ⟨0, _⟩ =>
      show win0_3.index t (0 : Fin 2) * 1 + 1 * 0 = 0
      rw [e30]
    | ⟨1, _⟩ =>
      show win0_3.index t (1 : Fin 2) * 512 + 1 * q.val = q.val
      rw [e31]; omega
  · intro q
    show (V m c main_v9 : S1x512.Idx → EReal) (((cfg0.win 4).blk t).view.emb (ix2 (0 : Fin 1) q)) = _
    rw [V_v9]
    refine Eq.trans (congrArg _ (funext fun a => Fin.ext ?_)) (scaleRow_apply _ _ q)
    match a with
    | ⟨0, _⟩ =>
      show win0_4.index t (0 : Fin 2) * 1 + 1 * 0 = 0
      rw [e40]
    | ⟨1, _⟩ =>
      show win0_4.index t (1 : Fin 2) * 512 + 1 * q.val = q.val
      rw [e41]; omega

/-- An index of the result is in point `t`'s block iff each coordinate is in the block's range on its axis. -/
theorem mem_blk (t : Fin cfg0.N) (i : S65536x512.Idx) :
    i ∈ ((cfg0.win 5).blk t).view.set ↔ ∀ a : Fin 2, win0_5.index t a * S1024x512.size a ≤ (i a).val
      ∧ (i a).val < win0_5.index t a * S1024x512.size a + S1024x512.size a := by
  show i ∈ ((View.whole main_v10).slice (win0_5.rect t)).set ↔ _
  rw [View.set_slice_whole, Rect.mem_set_unit]
  exact Iff.rfl

/-- The blocks tile the rows: row `ρ` is in the block of point `ρ / 1024`. -/
theorem cover (i : S65536x512.Idx) : ∃ t : Fin cfg0.N, (cfg0.win 5).flush t = true ∧ i ∈ ((cfg0.win 5).blk t).view.set := by
  have hN : grid0.N = 64 := Gen.N_0
  have hi0 : (i 0).val < 65536 := (i 0).isLt
  have hi1 : (i 1).val < 512 := (i 1).isLt
  have ht : (i 0).val / 1024 < cfg0.N := by
    show (i 0).val / 1024 < grid0.N
    rw [hN]; omega
  obtain ⟨-, -, -, -, -, -, -, -, -, -, e50, e51⟩ := idx_facts ⟨(i 0).val / 1024, ht⟩
  refine ⟨⟨(i 0).val / 1024, ht⟩, flush0_5 _, ?_⟩
  rw [mem_blk]
  intro a
  match a with
  | ⟨0, _⟩ =>
    show win0_5.index ⟨(i 0).val / 1024, ht⟩ (0 : Fin 2) * 1024 ≤ (i 0).val
      ∧ (i 0).val < win0_5.index ⟨(i 0).val / 1024, ht⟩ (0 : Fin 2) * 1024 + 1024
    rw [e50]
    show (i 0).val / 1024 * 1024 ≤ (i 0).val ∧ (i 0).val < (i 0).val / 1024 * 1024 + 1024
    omega
  | ⟨1, _⟩ =>
    show win0_5.index ⟨(i 0).val / 1024, ht⟩ (1 : Fin 2) * 512 ≤ (i 1).val
      ∧ (i 1).val < win0_5.index ⟨(i 0).val / 1024, ht⟩ (1 : Fin 2) * 512 + 512
    rw [e51]
    omega

/-- THE ARRAY after the run is the result the arguments determine. -/
theorem final (c : Dev nD) : (dats m 0 c).arrAt 5 cfg0.N = result m c :=
  (dats m 0 c).arrAt_eq_of_cover 5 (result m c) (fun t _ => flushed_eq m c t) cover

/-- The kernel's run: the result array at `GK` of the arguments, the arguments unchanged. -/
theorem run : θ_run defs (onTc (τ := τ) (main (F := Ideal))) ⟨m, fun _ => 0, ρ⟩ fun r => ∀ c : Dev nD,
      r.2.mem ((c : Thread nD τ).loc main_v10) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.BlockValue

end
-- ==== Proof.lean ====
/-
  The kernel and its reference compute one function of finite inputs.

  Both programs take `x : [65536, 1024]`, weights `[512, 1024]`, a bias, a scale `γ`, a shift `β` (each `[512]`) and a
  one-entry array `s`. For each row they form `a = x · wᵀ + bias`, normalise it to zero mean and unit variance over its
  512 entries (with a small constant added to the variance), apply the affine map, and take a softmax along the row.
  The kernel does this 1024 rows at a time over a grid of 64 points, multiplying by the reciprocal square root and
  using `γ · s` and `β · s` prepared beforehand; the reference divides by the square root and multiplies by `s` last.

  The proof has four parts: what the kernel's array ends holding (`GK` of the arguments, from the block each grid point
  writes and the tiling of the rows: KernelRow.lean, KernelBlocks.lean); what the reference's result is (`GR` of the
  arguments, stage by stage: RefRead.lean); that the precondition makes every input entry a real number
  (Finite.lean); and that on real numbers `GK = GR` (Law.lean: the variance is a mean of squares, so the quantity
  under the root is positive, and then `c · r · (γ s) + β s = (c · r · γ + β) · s`).
-/
import proofs.«156195_j19688130085503_2_alg».proof.Defs
import proofs.«156195_j19688130085503_2_alg».proof.Proof.Gen.Kernel
import proofs.«156195_j19688130085503_2_alg».proof.Proof.Gen.Kernel.Skeleton
import proofs.«156195_j19688130085503_2_alg».proof.Proof.Gen.Kernel.Launch
import proofs.«156195_j19688130085503_2_alg».proof.Proof.Gen.Kernel.Points
import proofs.«156195_j19688130085503_2_alg».proof.Proof.Gen.Kernel.Frame
import proofs.«156195_j19688130085503_2_alg».proof.Proof.Gen.KernelIdeal
import proofs.«156195_j19688130085503_2_alg».proof.Proof.Gen.KernelIdeal.Skeleton
import proofs.«156195_j19688130085503_2_alg».proof.Proof.Gen.KernelIdeal.Launch
import proofs.«156195_j19688130085503_2_alg».proof.Proof.Gen.KernelIdeal.Points
import proofs.«156195_j19688130085503_2_alg».proof.Proof.Gen.KernelIdeal.Frame
import proofs.«156195_j19688130085503_2_alg».proof.Proof.Gen.KernelIdeal.Value
import proofs.«156195_j19688130085503_2_alg».proof.Proof.Gen.ReferenceIdeal
import proofs.«156195_j19688130085503_2_alg».proof.Proof.Gen.ReferenceIdeal.Run
import proofs.«156195_j19688130085503_2_alg».proof.Proof.Gen.ReferenceIdeal.Read
import proofs.«156195_j19688130085503_2_alg».proof.Proof.Gen.Pre_finite_inputs
import proofs.«156195_j19688130085503_2_alg».proof.Proof.Spec
import proofs.«156195_j19688130085503_2_alg».proof.Proof.Law
import proofs.«156195_j19688130085503_2_alg».proof.Proof.Finite
import proofs.«156195_j19688130085503_2_alg».proof.Proof.RefRead
import proofs.«156195_j19688130085503_2_alg».proof.Proof.KernelBlocks
import Idealize.ShloMosaic.Adequacy
import Idealize.ShloMosaic.Init

noncomputable section

namespace Cert.Proof

open Idealize.ShloMosaic Idealize.SL.Sem

/-- The kernel as printed runs and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference runs and leaves its arguments as they were: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- From memories that agree on the six arguments, all finite, the kernel's array ends at `GK` of them and the
    reference's result is `GR` of them; on finite arguments the two are one function. -/
theorem algebraic : Cert.algebraic_KernelIdeal_ReferenceIdeal := by
  intro m ρ m' ρ' hpre hagree
  refine ⟨fun c => Cert.KernelIdeal.BlockValue.result m c, Cert.KernelIdeal.BlockValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v41_eq, Cert.ReferenceIdeal.RefValue.ref_eq]
  obtain ⟨a0, a1, a2, a3, a4, a5⟩ := hagree c
  rw [a0, a1, a2, a3, a4, a5]
  obtain ⟨r0, r1, r2, r3, r4, r5⟩ := Cert.Finite.real_of_pre _ _ _ _ _ _ (hpre c)
  exact (Cert.RowSoftmax.GK_eq_GR _ _ _ _ _ _ r0 r1 r2 r3 r4 r5).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
